-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x1 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S600000x256 : Shape := ⟨2, ![600000, 256]⟩
abbrev S1x1 : Shape := ⟨2, ![1, 1]⟩

abbrev nBuf : Space → Nat
  | .hbm => 64
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .bf16⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .bf16⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S128x256, .bf16⟩
  | .hbm, ⟨40, _⟩ => ⟨S1x256, .f32⟩
  | .hbm, ⟨41, _⟩ => ⟨S50000x256, .f32⟩
  | .hbm, ⟨42, _⟩ => ⟨S50000x256, .bf16⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x256, .bf16⟩
  | .hbm, ⟨52, _⟩ => ⟨S600000x256, .f32⟩
  | .hbm, ⟨53, _⟩ => ⟨S_, .f32⟩
  | .hbm, ⟨54, _⟩ => ⟨S50000x256, .f32⟩
  | .hbm, ⟨55, _⟩ => ⟨S600000x1, .i32⟩
  | .hbm, ⟨56, _⟩ => ⟨S50000x256, .f32⟩
  | .hbm, ⟨57, _⟩ => ⟨S256x256, .bf16⟩
  | .hbm, ⟨58, _⟩ => ⟨S256x256, .bf16⟩
  | .hbm, ⟨59, _⟩ => ⟨S256x1, .bf16⟩
  | .hbm, ⟨60, _⟩ => ⟨S1x256, .f32⟩
  | .hbm, ⟨61, _⟩ => ⟨S1x256, .f32⟩
  | .hbm, ⟨62, _⟩ => ⟨S1x1, .f32⟩
  | .hbm, ⟨63, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S256x256, .bf16⟩
  | .local _ .vmem, ⟨19, _⟩ => ⟨S1x256, .f32⟩
  | .local _ .vmem, ⟨20, _⟩ => ⟨S256x256, .bf16⟩
  | .local _ .vmem, ⟨21, _⟩ => ⟨S1x256, .f32⟩
  | .local _ .vmem, ⟨22, _⟩ => ⟨S256x1, .bf16⟩
  | .local _ .vmem, ⟨23, _⟩ => ⟨S1x1, .f32⟩
  | .local _ .vmem, ⟨24, _⟩ => ⟨S2000x1, .f32⟩
  | .local _ .vmem, ⟨25, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S1_S1x1 : S1.ShapeCasts S1x1
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .bf16 = 32 ∨ (Rect.block (s := S256x1) S256x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S50000x1.size a
  hwx1_9 : ∀ i : grid1.Coords, EltTy.bits .f32 = 32 ∨ (Rect.block (s := S50000x1) S2000x1.size (cc1_transform_9 i) (hinb1_9 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x256, .f32⟩
  | .hbm, ⟨53, _⟩ => ⟨S_, .f32⟩
  | .hbm, ⟨54, _⟩ => ⟨S50000x256, .f32⟩
  | .hbm, ⟨55, _⟩ => ⟨S600000x1, .i32⟩
  | .hbm, ⟨56, _⟩ => ⟨S50000x256, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S50000x256, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel program's run with its result named. The program is four segments: host operations, the first
  pallas_call, host operations, the second pallas_call. Every weakly fair execution terminates without a fault, and in
  the final memory every unscoped buffer of a core holds the contents the fold through the segments leaves: the
  launch memory pushed through the first stretch of host operations, the first call's arrays at what its
  write-backs leave, the second stretch, the second call's arrays. Read at the result buffer and at the eleven
  arguments this is the post below: the result at that fold, the arguments as launched.
-/
import proofs.«120125_j82205674045928_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the fold's
    contents `W4` and the argument arrays end as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.Stages.lean ====
/-
  The host stages both programs share, named once: the column of start indices (a negative index counts from the
  end), the degree count plus one, and the sum of the neighbours' rows — a row gather along the edges' sources
  followed by an accumulating row scatter onto the edges' destinations. With these names the reference program's
  result is two mean-and-dense layers and a decoder, spelt out in `reference_result`.
-/
import proofs.«120125_j82205674045928_2_alg».proof.Proof.Gen.ReferenceIdeal.Run
import Idealize.ShloMosaic.PureOps.Ideal

noncomputable section

namespace Cert.Sage.Stages

open Idealize.ShloMosaic Idealize.ShloMosaic.TcCoe Idealize.SL.Sem Cert.ReferenceIdeal Cert.ReferenceIdeal.Facts₀ Cert.ReferenceIdeal.Facts

/-- The edges' sources as a column of start indices; a negative source counts from the end of the node axis. -/
def srcCol (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The edges' destinations as a column of start indices. -/
def dstCol (dst : IVec S600000 32) : IVec S600000x1 32 :=
  broadcastInDim S600000x1 ![0] bcast_S600000_S600000x1_0 dst

/-- One plus the number of edges arriving at each node: ones scattered, accumulating, onto zeros, plus one. -/
def degree (dst : IVec S600000 32) : FVec Ideal S50000 .f32 :=
  addf (Host.scatterAdd scatter_S50000_S600000x1_S600000_n_0_0_1
      (broadcastInDim S50000 ![] bcast_S_S50000 (constant S_ .f32 0x00000000#32)) (dstCol dst)
      (broadcastInDim S600000 ![] bcast_S_S600000 (constant S_ .f32 0x3F800000#32)))
    (broadcastInDim S50000 ![] bcast_S_S50000 (constant S_ .f32 0x3F800000#32))

/-- The neighbours' rows summed per node, for rows of 128 entries. -/
def neighA (x : FVec Ideal S50000x128 .f32) (src dst : IVec S600000 32) :
    FVec Ideal S50000x128 .f32 :=
  Host.scatterAdd scatter_S50000x128_S600000x1_S600000x128_1_0_0_1
    (broadcastInDim S50000x128 ![] bcast_S_S50000x128 (constant S_ .f32 0x00000000#32)) (dstCol dst)
    (Host.gather gather_S50000x128_S600000x1_S600000x128_1_0_n_n_0_1_1128 x (srcCol src))

/-- The neighbours' rows summed per node, for rows of 256 entries. -/
def neighB (x : FVec Ideal S50000x256 .f32) (src dst : IVec S600000 32) :
    FVec Ideal S50000x256 .f32 :=
  Host.scatterAdd scatter_S50000x256_S600000x1_S600000x256_1_0_0_1
    (broadcastInDim S50000x256 ![] bcast_S_S50000x256 (constant S_ .f32 0x00000000#32)) (dstCol dst)
    (Host.gather gather_S50000x256_S600000x1_S600000x256_1_0_n_n_0_1_1256 x (srcCol src))

/-- The reference's first layer on all nodes: the mean by division, a dense layer, the rectifier. -/
def refHidden (feat : FVec Ideal S50000x128 .f32) (src dst : IVec S600000 32)
    (W1 : FVec Ideal S128x256 .f32) (b1 : FVec Ideal S256 .f32) :
    FVec Ideal S50000x256 .f32 :=
  maximumf (addf (Host.dotGeneral dot_S50000x128_S128x256_S50000x256_1_0_0_1_n_n none
      (Host.divf (addf (neighA feat src dst) feat)
        (broadcastInDim S50000x128 ![0, 1] bcast_S50000x1_S50000x128_0_1 (broadcastInDim S50000x1 ![0] bcast_S50000_S50000x1_0 (degree dst)))) W1)
      (broadcastInDim S50000x256 ![0, 1] bcast_S1x256_S50000x256_0_1 (broadcastInDim S1x256 ![1] bcast_S256_S1x256_1 b1)))
    (broadcastInDim S50000x256 ![] bcast_S_S50000x256 (constant S_ .f32 0x00000000#32))

/-- The reference's second layer and decoder on all nodes, from the hidden rows. -/
def refOutput (h : FVec Ideal S50000x256 .f32) (src dst : IVec S600000 32)
    (W2 : FVec Ideal S256x256 .f32) (b2 : FVec Ideal S256 .f32)
    (Wd1 : FVec Ideal S256x256 .f32) (bd1 : FVec Ideal S256 .f32)
    (Wd2 : FVec Ideal S256x1 .f32) (bd2 : FVec Ideal S1 .f32) :
    FVec Ideal S50000x1 .f32 :=
  addf (Host.dotGeneral dot_S50000x256_S256x1_S50000x1_1_0_0_1_n_n none
      (maximumf (addf (Host.dotGeneral dot_S50000x256_S256x256_S50000x256_1_0_0_1_n_n none
          (addf (Host.dotGeneral dot_S50000x256_S256x256_S50000x256_1_0_0_1_n_n none
              (Host.divf (addf (neighB h src dst) h)
                (broadcastInDim S50000x256 ![0, 1] bcast_S50000x1_S50000x256_0_1 (broadcastInDim S50000x1 ![0] bcast_S50000_S50000x1_0 (degree dst)))) W2)
            (broadcastInDim S50000x256 ![0, 1] bcast_S1x256_S50000x256_0_1 (broadcastInDim S1x256 ![1] bcast_S256_S1x256_1 b2))) Wd1)
          (broadcastInDim S50000x256 ![0, 1] bcast_S1x256_S50000x256_0_1 (broadcastInDim S1x256 ![1] bcast_S256_S1x256_1 bd1)))
        (broadcastInDim S50000x256 ![] bcast_S_S50000x256 (constant S_ .f32 0x00000000#32))) Wd2)
    (broadcastInDim S50000x1 ![0, 1] bcast_S1x1_S50000x1_0_1 (broadcastInDim S1x1 ![1] bcast_S1_S1x1_1 bd2))

set_option maxRecDepth 16384 in
/-- The reference program's result is `refOutput` of `refHidden` of the argument arrays. -/
theorem reference_result (m : (ℓ : Loc nD τ sig) → Buf (Elt Ideal) ℓ) (c : Dev nD) :
    Cert.ReferenceIdeal.Value.res_main_v57 (F := Ideal) m c
      = refOutput (refHidden (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg2))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v57 refOutput refHidden neighA neighB degree srcCol dstCol
  rfl

end Cert.Sage.Stages

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.Spec.lean ====
/-
  Two GraphSAGE layers (the "gcn" aggregator) and a two-layer decoder, one node at a time.

  For a node v with feature row f, summed neighbour rows a and degree count n, a layer first forms the mean over the
  node and its neighbours, (a + f) / (n + 1), and then applies a dense layer. One program divides by n + 1; the other
  multiplies by the reciprocal 1 / (n + 1) computed once. On the extended reals these agree as soon as n + 1 is not
  zero, and n + 1 is at least one because n is a sum of ones. Everything after the mean — dense layers and
  rectifiers — is the same function of the row in both programs, so it is named once here, as a function of one row.
-/
import Idealize.ShloMosaic.PureOps.Ideal
import Idealize.ShloMosaic.Lib.ValueIdx
import proofs.«120125_j82205674045928_2_alg».proof.Proof.LibDenseRows
import proofs.«120125_j82205674045928_2_alg».proof.Proof.LibRecip

noncomputable section

namespace Cert.Sage

open Idealize.ShloMosaic Idealize.ShloMosaic.ValueIdx Cert.DenseRows

/-- The rectifier's threshold: the single-precision word of zero, read on the extended reals. -/
def zeroWord : EReal := Ideal.ofBits .f32 0x00000000#32

/-- The mean over a node and its neighbours, with the reciprocal of the count given: `(a + f) · s`, entry by entry. -/
def meanMul {K : ℕ} (a f : Fin K → EReal) (s : EReal) : Fin K → EReal := fun j => (a j + f j) * s

/-- The same mean with the count itself given: `(a + f) / d`, entry by entry. -/
def meanDiv {K : ℕ} (a f : Fin K → EReal) (d : EReal) : Fin K → EReal := fun j => Ideal.div (a j + f j) d

/-- Dividing by a count that is not zero is multiplying by its reciprocal. -/
theorem meanDiv_eq_meanMul {K : ℕ} (a f : Fin K → EReal) (d : EReal) (hd : d ≠ 0) :
    meanDiv a f d = meanMul a f (Ideal.div 1 d) :=
  funext fun _ => Cert.LibRecip.div_eq_mul_recip _ d hd

/-- The first layer on one row: a dense layer, then the rectifier. -/
def encode {K N : ℕ} (x : Fin K → EReal) (W : Fin K → Fin N → EReal) (b : Fin N → EReal) : Fin N → EReal :=
  floorAt zeroWord (affine x W b)

/-- The second layer and the decoder on one row: a dense layer, a dense layer with the rectifier, a dense layer. -/
def decode {K N P Q : ℕ} (x : Fin K → EReal) (W2 : Fin K → Fin N → EReal) (b2 : Fin N → EReal)
    (Wd1 : Fin N → Fin P → EReal) (bd1 : Fin P → EReal) (Wd2 : Fin P → Fin Q → EReal) (bd2 : Fin Q → EReal) :
    Fin Q → EReal :=
  affine (floorAt zeroWord (affine (affine x W2 b2) Wd1 bd1)) Wd2 bd2

end Cert.Sage

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.Words.lean ====
/-
  The two single-precision words the programs spell, as extended reals: the word of 0.0 is 0 and the word of 1.0 is 1.
-/
import Idealize.ShloMosaic.PureOps.Ideal

noncomputable section

namespace Cert.Sage.Words

open Idealize.ShloMosaic

/-- The word `0x00000000` (sign 0, exponent field 0, fraction 0) denotes zero. -/
theorem word_zero : Ideal.ofBits .f32 0x00000000#32 = 0 := by
  simp [Ideal.ofBits, Ideal.ieee]

/-- The word `0x3F800000` (sign 0, exponent field 127, fraction 0) denotes `2 ^ 0 · 1 = 1`. -/
theorem word_one : Ideal.ofBits .f32 0x3F800000#32 = 1 := by
  simp [Ideal.ofBits, Ideal.ieee, -EReal.coe_mul]; norm_num

end Cert.Sage.Words

end
-- ==== Proof.RefRows.lean ====
/-
  The reference's two layers read one row at a time, and the degree count.

  Both layers of the reference start from the mean over a node and its neighbours: the summed neighbour rows plus
  the node's own row, divided entry by entry by the degree count, which is kept as one number per node, made a
  column and spread over the lanes. Row r of that quotient therefore uses the one count of node r and row r of the two
  summands. Everything after the mean is a chain of dense layers and rectifiers, each of which acts on every row
  separately, so row r of the hidden layer is the encoder applied to the mean of row r, and row r of the result is the
  second layer and the decoder applied to the mean of row r of the hidden rows.

  The degree count of a node is zero, plus one for every edge arriving at the node, plus one. A sum of ones is not
  negative, so the count is at least one and in particular not zero: the division above is never a division by zero.
-/
import proofs.«120125_j82205674045928_2_alg».proof.Proof.Stages
import proofs.«120125_j82205674045928_2_alg».proof.Proof.Spec
import proofs.«120125_j82205674045928_2_alg».proof.Proof.LibDenseRows
import proofs.«120125_j82205674045928_2_alg».proof.Proof.LibLayoutRead
import proofs.«120125_j82205674045928_2_alg».proof.Proof.Words
import Idealize.ShloMosaic.PureOps.Ideal
import Idealize.ShloMosaic.PureOps.Ideal.Laws
import Idealize.ShloMosaic.Lib.Pipeline.Value
import Idealize.ShloMosaic.Lib.ValueIdx

noncomputable section

namespace Cert.Sage.RefRows

open Idealize.ShloMosaic Idealize.ShloMosaic.TcCoe Idealize.SL.Sem Idealize.ShloMosaic.ValueIdx
  Cert.ReferenceIdeal Cert.ReferenceIdeal.Facts₀ Cert.ReferenceIdeal.Facts Cert.DenseRows Cert.Sage Cert.Sage.Stages

/-! ## The mean over a node and its neighbours, one row at a time -/

/-- Row `r` of `(a + f) / d`, where the `[R]` array `d` of counts is made a column `[R, 1]` and then spread over
    the `K` lanes: every entry of the row is divided by the one count `d r`. -/
theorem row_meanDiv {R K : ℕ} (a f : FVec Ideal ⟨2, ![R, K]⟩ .f32) (d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1]) (r : Fin R) :
    row (Host.divf (addf a f)
          (broadcastInDim ⟨2, ![R, K]⟩ ![0, 1] h2 (broadcastInDim ⟨2, ![R, 1]⟩ ![0] h1 d))) r
      = meanDiv (row a r) (row f r) (d (ix1 r)) := by
  funext k
  show Ideal.div (a (ix2 r k) + f (ix2 r k))
      (broadcastInDim ⟨2, ![R, K]⟩ ![0, 1] h2 (broadcastInDim ⟨2, ![R, 1]⟩ ![0] h1 d) (ix2 r k)) = _
  rw [LayoutRead.bid_cols, LayoutRead.bid_col]
  rfl

/-! ## The two layers of the reference, one row at a time -/

/-- Row `r` of the reference's hidden layer is the encoder applied to the mean of row `r`. -/
theorem refHidden_row (feat : FVec Ideal S50000x128 .f32) (src dst : IVec S600000 32) (W1 : FVec Ideal S128x256 .f32) (b1 : FVec Ideal S256 .f32) (r : Fin 50000) :
    row (refHidden feat src dst W1 b1) r
      = encode (meanDiv (row (neighA feat src dst) r) (row feat r) (degree dst (ix1 r))) (mat W1) (vec b1) := by
  unfold refHidden encode
  refine (row_max_splatInDim _ _ _ _ r).trans ?_
  refine congrArg (floorAt zeroWord) ?_
  refine (row_dotGeneral_bias _ rfl none _ W1 b1 _ _ r).trans ?_
  refine congrArg (fun x => affine x (mat W1) (vec b1)) ?_
  exact row_meanDiv _ _ _ _ _ r

/-- Row `r` of the reference's result is the second layer and the decoder applied to the mean of row `r` of the hidden rows. -/
theorem refOutput_row (h : FVec Ideal S50000x256 .f32) (src dst : IVec S600000 32) (W2 : FVec Ideal S256x256 .f32) (b2 : FVec Ideal S256 .f32)
    (Wd1 : FVec Ideal S256x256 .f32) (bd1 : FVec Ideal S256 .f32) (Wd2 : FVec Ideal S256x1 .f32) (bd2 : FVec Ideal S1 .f32) (r : Fin 50000) :
    row (refOutput h src dst W2 b2 Wd1 bd1 Wd2 bd2) r
      = decode (meanDiv (row (neighB h src dst) r) (row h r) (degree dst (ix1 r))) (mat W2) (vec b2) (mat Wd1) (vec bd1) (mat Wd2) (vec bd2) := by
  unfold refOutput decode
  refine (row_dotGeneral_bias _ rfl none _ Wd2 bd2 _ _ r).trans ?_
  refine congrArg (fun x => affine x (mat Wd2) (vec bd2)) ?_
  refine (row_max_splatInDim _ _ _ _ r).trans ?_
  refine congrArg (floorAt zeroWord) ?_
  refine (row_dotGeneral_bias _ rfl none _ Wd1 bd1 _ _ r).trans ?_
  refine congrArg (fun x => affine x (mat Wd1) (vec bd1)) ?_
  refine (row_dotGeneral_bias _ rfl none _ W2 b2 _ _ r).trans ?_
  refine congrArg (fun x => affine x (mat W2) (vec b2)) ?_
  exact row_meanDiv _ _ _ _ _ r

/-! ## The degree count is never zero -/

/-- An accumulating scatter of entries that are not negative onto an entry that is not negative, plus a positive
    constant, is positive, hence not zero: it is `x i` plus a sum of such entries plus the constant. -/
theorem scatterAdd_add_pos_ne_zero {s si su : Shape} (d : ScatterDims s si su) {w : ℕ} (x : s.Idx → EReal) (idx : IVec si w)
    (upd : su.Idx → EReal) (c : EReal) (i : s.Idx) (hx : 0 ≤ x i) (hu : ∀ j, 0 ≤ upd j) (hc : 0 < c) :
    Ideal.hostScatterAdd d x idx upd i + c ≠ 0 := by
  have h0 : 0 ≤ Ideal.hostScatterAdd d x idx upd i := add_nonneg hx (Finset.sum_nonneg fun j _ => hu j)
  exact ne_of_gt (lt_of_lt_of_le hc (le_add_of_nonneg_left h0))

/-- The degree count at a node is zero plus one for every edge arriving there plus one: at least one, so not zero. -/
theorem degree_ne_zero (dst : IVec S600000 32) (r : Fin 50000) : degree dst (ix1 r) ≠ 0 := by
  unfold degree
  refine scatterAdd_add_pos_ne_zero scatter_S50000_S600000x1_S600000_n_0_0_1 _ (dstCol dst) _ _ (ix1 r) ?_ (fun j => ?_) ?_
  · rw [splat_apply]
    show 0 ≤ Ideal.ofBits .f32 0x00000000#32
    rw [Words.word_zero]
  · rw [splat_apply]
    show 0 ≤ Ideal.ofBits .f32 0x3F800000#32
    rw [Words.word_one]
    exact zero_le_one
  · rw [splat_apply]
    show 0 < Ideal.ofBits .f32 0x3F800000#32
    rw [Words.word_one]
    exact zero_lt_one

end Cert.Sage.RefRows

end
-- ==== Proof.Bridge.lean ====
/-
  The kernel program's two stages as whole-array functions of the arguments, and that they are the reference's.

  The kernel multiplies the summed rows by the reciprocal of the degree count, 1 / (n + 1), computed once; the
  reference divides by n + 1. The count n + 1 is never zero (it is one plus a sum of ones), and dividing by a
  number that is not zero is multiplying by its reciprocal, for every extended real dividend. Everything after the
  mean is the same function of the row in both programs. So the hidden rows agree, node by node, and then —
  the second stage being one function of the hidden rows on both sides — so do the results.
-/
import proofs.«120125_j82205674045928_2_alg».proof.Proof.Stages
import proofs.«120125_j82205674045928_2_alg».proof.Proof.Spec
import proofs.«120125_j82205674045928_2_alg».proof.Proof.RefRows
import proofs.«120125_j82205674045928_2_alg».proof.Proof.Words
import Idealize.ShloMosaic.Lib.ValueIdx

noncomputable section

namespace Cert.Sage.Bridge

open Idealize.ShloMosaic Idealize.ShloMosaic.ValueIdx Cert.ReferenceIdeal Cert.DenseRows Cert.Sage Cert.Sage.Stages

/-- The reciprocal of a node's degree count as the kernel program computes it: the word of 1.0 divided by the count. -/
def recip (dst : IVec S600000 32) (r : Fin 50000) : EReal :=
  Ideal.div (Ideal.ofBits .f32 0x3F800000#32) (degree dst (ix1 r))

/-- The kernel program's hidden rows: per node, the mean by the reciprocal, a dense layer, the rectifier. -/
def kHidden (feat : FVec Ideal S50000x128 .f32) (src dst : IVec S600000 32) (W1 : FVec Ideal S128x256 .f32)
    (b1 : FVec Ideal S256 .f32) : FVec Ideal S50000x256 .f32 := fun i =>
  encode (meanMul (row (neighA feat src dst) (i 0)) (row feat (i 0)) (recip dst (i 0))) (mat W1) (vec b1) (i 1)

/-- The kernel program's result from the hidden rows: per node, the mean by the reciprocal, then the decoder. -/
def kOutput (h : FVec Ideal S50000x256 .f32) (src dst : IVec S600000 32) (W2 : FVec Ideal S256x256 .f32)
    (b2 : FVec Ideal S256 .f32) (Wd1 : FVec Ideal S256x256 .f32) (bd1 : FVec Ideal S256 .f32)
    (Wd2 : FVec Ideal S256x1 .f32) (bd2 : FVec Ideal S1 .f32) : FVec Ideal S50000x1 .f32 := fun i =>
  decode (meanMul (row (neighB h src dst) (i 0)) (row h (i 0)) (recip dst (i 0))) (mat W2) (vec b2) (mat Wd1) (vec bd1)
    (mat Wd2) (vec bd2) (i 1)

/-- Multiplying by the reciprocal of the count is dividing by the count: the count is not zero. -/
theorem mean_eq {K : ℕ} (a f : Fin K → EReal) (dst : IVec S600000 32) (r : Fin 50000) :
    meanMul a f (recip dst r) = meanDiv a f (degree dst (ix1 r)) := by
  unfold recip
  rw [Cert.Sage.Words.word_one]
  exact (meanDiv_eq_meanMul a f _ (Cert.Sage.RefRows.degree_ne_zero dst r)).symm

/-- The hidden rows of the two programs are one array. -/
theorem kHidden_eq (feat : FVec Ideal S50000x128 .f32) (src dst : IVec S600000 32) (W1 : FVec Ideal S128x256 .f32)
    (b1 : FVec Ideal S256 .f32) : kHidden feat src dst W1 b1 = refHidden feat src dst W1 b1 := by
  funext i
  obtain ⟨r, n, rfl⟩ : ∃ (r : Fin 50000) (n : Fin 256), i = ix2 r n := ⟨i 0, i 1, eq_ix2 i⟩
  show encode (meanMul (row (neighA feat src dst) r) (row feat r) (recip dst r)) (mat W1) (vec b1) n
    = row (refHidden feat src dst W1 b1) r n
  rw [Cert.Sage.RefRows.refHidden_row, mean_eq]

/-- From one array of hidden rows, the results of the two programs are one array. -/
theorem kOutput_eq (h : FVec Ideal S50000x256 .f32) (src dst : IVec S600000 32) (W2 : FVec Ideal S256x256 .f32)
    (b2 : FVec Ideal S256 .f32) (Wd1 : FVec Ideal S256x256 .f32) (bd1 : FVec Ideal S256 .f32)
    (Wd2 : FVec Ideal S256x1 .f32) (bd2 : FVec Ideal S1 .f32) :
    kOutput h src dst W2 b2 Wd1 bd1 Wd2 bd2 = refOutput h src dst W2 b2 Wd1 bd1 Wd2 bd2 := by
  funext i
  obtain ⟨r, q, rfl⟩ : ∃ (r : Fin 50000) (q : Fin 1), i = ix2 r q := ⟨i 0, i 1, eq_ix2 i⟩
  show decode (meanMul (row (neighB h src dst) r) (row h r) (recip dst r)) (mat W2) (vec b2) (mat Wd1) (vec bd1)
      (mat Wd2) (vec bd2) q
    = row (refOutput h src dst W2 b2 Wd1 bd1 Wd2 bd2) r q
  rw [Cert.Sage.RefRows.refOutput_row, mean_eq]

end Cert.Sage.Bridge

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«120125_j82205674045928_2_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.BlockRows.lean ====
/-
  Rows of a kernel block of this program, in the vocabulary of its specification: the mean `(a + f) · s` with the
  reciprocal count `s` held as a column and spread over the lanes, and a dense layer whose bias is held as a one-row
  matrix and spread over the rows. Both are the general block-row facts, restated with the specification's names.
-/
import proofs.«120125_j82205674045928_2_alg».proof.Proof.Spec
import proofs.«120125_j82205674045928_2_alg».proof.Proof.LibBlockRows

noncomputable section

namespace Cert.Sage.BlockRows

open Idealize.ShloMosaic Idealize.ShloMosaic.ValueIdx Cert.DenseRows Cert.Sage

/-- Row `r` of `(a + f) · s`, the column `s` spread over the lanes, is the mean of the two rows with the
    reciprocal count `s r`. -/
theorem row_meanMul {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r = meanMul (row a r) (row f r) (s (ix2 r (0 : Fin 1))) :=
  Cert.LibBlockRows.row_scaled_sum a f s hb r

/-- Row `r` of a matrix product accumulated into the zero splat, plus a one-row bias spread over the rows, is the
    dense layer of row `r`. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) :=
  Cert.LibBlockRows.row_matmul_rowbias d hd prec a w b hb r

end Cert.Sage.BlockRows

end
-- ==== Proof.Region0.lean ====
/-
  The first layer's kernel call, read as one function of the arrays it finds.

  The call walks a grid of 25 points. At point t it reads rows 2000 t … 2000 t + 1999 of the node features, of the
  summed neighbour rows and of the reciprocal counts, together with the whole weight matrix and the one-row bias, and
  writes the same rows of its two results. Each row it writes is the rectified dense layer of the mean row, and a row
  of a block is the row of the whole array 2000 t places further down; the 25 blocks fill all 50000 rows. So both
  results end holding, at (r, n), the layer of row r of the operands — one function of the whole arrays.
-/
import proofs.«120125_j82205674045928_2_alg».proof.Proof.Gen.KernelIdeal.Frame
import proofs.«120125_j82205674045928_2_alg».proof.Proof.Spec
import proofs.«120125_j82205674045928_2_alg».proof.Proof.BlockRows
import Idealize.ShloMosaic.Lib.Pipeline.Value

noncomputable section

open Idealize.ShloMosaic Idealize.ShloMosaic.TcCoe Idealize.SL.Sem Idealize.ShloMosaic.ValueIdx
open Idealize.ShloMosaic.Pipeline (Dat)
open Cert.DenseRows Cert.Sage

namespace Cert.KernelIdeal.Region0
open Cert.KernelIdeal Cert.KernelIdeal.Gen

/-! ## One block, one row -/

theorem zero_offsets : (![0, 0] : Fin 2 → Nat) = fun _ => 0 := funext fun a => by fin_cases a <;> rfl

/-- Row `y` of what the body leaves in the first result's block: the rectified dense layer of the mean of row `y` of
    the two row operands, with the reciprocal count of row `y`. The body adds the rows in the order
    neighbours + features. -/
theorem row_out5 (x0 x1 : Vec Ideal S2000x128 .f32) (x2 : Vec Ideal S2000x1 .f32) (x3 : Vec Ideal S128x256 .bf16)
    (x4 : Vec Ideal S1x256 .f32) (y : Fin 2000) :
    row (out0_5 x0 x1 x2 x3 x4) y = encode (meanMul (row x1 y) (row x0 y) (x2 (ix2 y 0))) (mat x3) (row x4 0) := by
  unfold out0_5
  rw [View.canon_unit_zero zero_offsets]
  simp only [View.ld_unit_zero (S := S2000x128) zero_offsets, View.ld_unit_zero (S := S2000x1) zero_offsets,
    View.ld_unit_zero (S := S128x256) zero_offsets, View.ld_unit_zero (S := S1x256) zero_offsets]
  unfold k0_pay1
  dsimp only
  simp only [shapeCast_self]
  refine (row_max_splat _ _ y).trans ?_
  unfold encode
  refine congrArg (floorAt zeroWord) ?_
  refine (Cert.Sage.BlockRows.row_matmul_rowbias _ rfl none _ _ _ _ y).trans ?_
  refine congrArg (fun x => affine x (mat x3) (row x4 0)) ?_
  refine (row_truncf _ _ y).trans ?_
  exact Cert.Sage.BlockRows.row_meanMul x1 x0 x2 _ y

/-- The second result's block holds the same rows: it is the first's in the narrower format, which changes no value
    here. -/
theorem row_out6 (x0 x1 : Vec Ideal S2000x128 .f32) (x2 : Vec Ideal S2000x1 .f32) (x3 : Vec Ideal S128x256 .bf16)
    (x4 : Vec Ideal S1x256 .f32) (y : Fin 2000) :
    row (out0_6 x0 x1 x2 x3 x4) y = encode (meanMul (row x1 y) (row x0 y) (x2 (ix2 y 0))) (mat x3) (row x4 0) := by
  refine Eq.trans ?_ (row_out5 x0 x1 x2 x3 x4 y)
  unfold out0_6 out0_5
  rw [View.canon_unit_zero zero_offsets, View.canon_unit_zero zero_offsets]
  unfold k0_pay2
  exact row_truncf _ _ y

/-- The same two facts read at one entry of the block. -/
theorem out5_entry (x0 x1 : Vec Ideal S2000x128 .f32) (x2 : Vec Ideal S2000x1 .f32) (x3 : Vec Ideal S128x256 .bf16)
    (x4 : Vec Ideal S1x256 .f32) (y : Fin 2000) (n : Fin 256) :
    out0_5 x0 x1 x2 x3 x4 (ix2 y n)
      = encode (meanMul (row x1 y) (row x0 y) (x2 (ix2 y 0))) (mat x3) (row x4 0) n := by
  have h := congrFun (row_out5 x0 x1 x2 x3 x4 y) n
  simp only [row] at h ⊢
  exact h

theorem out6_entry (x0 x1 : Vec Ideal S2000x128 .f32) (x2 : Vec Ideal S2000x1 .f32) (x3 : Vec Ideal S128x256 .bf16)
    (x4 : Vec Ideal S1x256 .f32) (y : Fin 2000) (n : Fin 256) :
    out0_6 x0 x1 x2 x3 x4 (ix2 y n)
      = encode (meanMul (row x1 y) (row x0 y) (x2 (ix2 y 0))) (mat x3) (row x4 0) n := by
  have h := congrFun (row_out6 x0 x1 x2 x3 x4 y) n
  simp only [row] at h ⊢
  exact h

/-! ## A block is a band of rows of its array -/

/-- Where each window's block sits at grid point `t`: the row windows (features, neighbour sums, reciprocal counts,
    both results) are at block `(t, 0)`, the weight matrix and the bias at block `(0, 0)`. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The grid has 25 points. -/
theorem point_lt (t : Fin cfg0.N) : t.val < 25 := lt_of_lt_of_eq t.isLt N_0

/-- Row `p` of block `t` is row `2000 t + p` of the array, which has 50000 rows. -/
theorem band_row_lt (t : Fin cfg0.N) (p : Fin 2000) : 2000 * t.val + p.val < 50000 := by
  have ht := point_lt t
  have hp := p.isLt
  omega

/-- The row of the whole array that row `p` of block `t` is. -/
def bandRow (t : Fin cfg0.N) (p : Fin 2000) : Fin 50000 := ⟨2000 * t.val + p.val, band_row_lt t p⟩

variable (V : (c : Dev nD) → (b : Ref sig .tc) → Buf (Elt Ideal) ((c : Thread nD τ).loc b))

/-- Row `p` of the feature block at point `t`. -/
theorem row_features (c : Dev nD) (t : Fin cfg0.N) (p : Fin 2000) :
    row (R := 2000) (K := 128) (iblk0 V c 0 t) p = row (R := 50000) (K := 128) (V c main_arg0) (bandRow t p) := by
  obtain ⟨⟨e0, e1⟩, -⟩ := block_index t
  funext k
  show V c main_arg0 (((cfg0.win 0).blk t).view.emb (ix2 p k)) = V c main_arg0 (ix2 (bandRow t p) k)
  refine congrArg (V c main_arg0) ?_
  funext a; apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Row `p` of the block of summed neighbour rows at point `t`. -/
theorem row_neighbours (c : Dev nD) (t : Fin cfg0.N) (p : Fin 2000) :
    row (R := 2000) (K := 128) (iblk0 V c 1 t) p = row (R := 50000) (K := 128) (V c main_v20) (bandRow t p) := by
  obtain ⟨-, ⟨e0, e1⟩, -⟩ := block_index t
  funext k
  show V c main_v20 (((cfg0.win 1).blk t).view.emb (ix2 p k)) = V c main_v20 (ix2 (bandRow t p) k)
  refine congrArg (V c main_v20) ?_
  funext a; apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- Entry `p` of the block of reciprocal counts at point `t`. -/
theorem entry_recip (c : Dev nD) (t : Fin cfg0.N) (p : Fin 2000) :
    (iblk0 V c 2 t : Vec Ideal S2000x1 .f32) (ix2 p (0 : Fin 1)) = V c main_v8 (ix2 (bandRow t p) (0 : Fin 1)) := by
  obtain ⟨-, -, ⟨e0, e1⟩, -⟩ := block_index t
  show V c main_v8 (((cfg0.win 2).blk t).view.emb (ix2 p (0 : Fin 1))) = V c main_v8 (ix2 (bandRow t p) (0 : Fin 1))
  refine congrArg (V c main_v8) ?_
  funext a; apply Fin.ext
  match a with
  | ⟨0, _⟩ => show win0_2.index t (0 : Fin 2) * 2000 + 1 * p.val = 2000 * t.val + p.val; rw [e0]; omega
  | ⟨1, _⟩ => show win0_2.index t (1 : Fin 2) * 1 + 1 * (0 : Fin 1).val = (0 : Fin 1).val; rw [e1]; rfl

/-- The weight matrix's block is the whole matrix at every point. -/
theorem block_weights (c : Dev nD) (t : Fin cfg0.N) : (iblk0 V c 3 t : Vec Ideal S128x256 .bf16) = V c main_v21 := by
  obtain ⟨-, -, -, ⟨e0, e1⟩, -⟩ := block_index t
  funext y
  show V c main_v21 (((cfg0.win 3).blk t).view.emb y) = V c main_v21 y
  refine congrArg (V c main_v21) ?_
  funext a; apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias's block is the whole one-row array at every point. -/
theorem block_bias (c : Dev nD) (t : Fin cfg0.N) : (iblk0 V c 4 t : Vec Ideal S1x256 .f32) = V c main_v22 := by
  obtain ⟨-, -, -, -, ⟨e0, e1⟩, -⟩ := block_index t
  funext y
  show V c main_v22 (((cfg0.win 4).blk t).view.emb y) = V c main_v22 y
  refine congrArg (V c main_v22) ?_
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## What the call leaves in its two results -/

/-- The first layer's hidden features as one function of the arrays the call finds: at `(r, n)`, the rectified dense
    layer of the mean of row `r`. -/
def hidden (c : Dev nD) : S50000x256.Idx → EReal := fun i =>
  encode (meanMul (row (V c main_v20) (i 0)) (row (V c main_arg0) (i 0)) (V c main_v8 (ix2 (i 0) 0)))
    (mat (V c main_v21)) (row (V c main_v22) 0) (i 1)

theorem hidden_apply (c : Dev nD) (r : Fin 50000) (n : Fin 256) : hidden V c (ix2 r n) =
    encode (meanMul (row (V c main_v20) r) (row (V c main_arg0) r) (V c main_v8 (ix2 r 0)))
      (mat (V c main_v21)) (row (V c main_v22) 0) n := rfl

/-- Entry `(p, q)` of a result block at point `t` is entry `(2000 t + p, q)` of the result array. -/
theorem result_entry5 (t : Fin cfg0.N) (p : Fin 2000) (q : Fin 256) :
    ((cfg0.win 5).blk t).view.emb (ix2 p q) = (ix2 (bandRow t p) q : S50000x256.Idx) := by
  obtain ⟨-, -, -, -, -, ⟨e0, e1⟩, -⟩ := block_index t
  funext a; apply Fin.ext
  match a with
  | ⟨0, _⟩ => show win0_5.index t (0 : Fin 2) * 2000 + 1 * p.val = 2000 * t.val + p.val; rw [e0]; omega
  | ⟨1, _⟩ => show win0_5.index t (1 : Fin 2) * 256 + 1 * q.val = q.val; rw [e1]; omega

theorem result_entry6 (t : Fin cfg0.N) (p : Fin 2000) (q : Fin 256) :
    ((cfg0.win 6).blk t).view.emb (ix2 p q) = (ix2 (bandRow t p) q : S50000x256.Idx) := by
  obtain ⟨-, -, -, -, -, -, ⟨e0, e1⟩⟩ := block_index t
  funext a; apply Fin.ext
  match a with
  | ⟨0, _⟩ => show win0_6.index t (0 : Fin 2) * 2000 + 1 * p.val = 2000 * t.val + p.val; rw [e0]; omega
  | ⟨1, _⟩ => show win0_6.index t (1 : Fin 2) * 256 + 1 * q.val = q.val; rw [e1]; omega

/-- What point `t` writes back to the first result is block `t` of `hidden`. -/
theorem flushed5 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  funext y
  obtain ⟨p, q, rfl⟩ : ∃ (p : Fin 2000) (q : Fin 256), y = ix2 p q := ⟨y 0, y 1, eq_ix2 y⟩
  show out0_5 (iblk0 V c 0 t) (iblk0 V c 1 t) (iblk0 V c 2 t) (iblk0 V c 3 t) (iblk0 V c 4 t)
      ((cfg0.win 5).xinj (grid0.coords t) (ix2 p q))
    = hidden V c (((cfg0.win 5).blk t).view.emb (ix2 p q))
  have hx : (cfg0.win 5).xinj (grid0.coords t) (ix2 p q) = (ix2 p q : S2000x256.Idx) :=
    funext fun a => Fin.ext (by match a with | ⟨0, _⟩ => rfl | ⟨1, _⟩ => rfl)
  rw [hx, out5_entry (iblk0 V c 0 t) (iblk0 V c 1 t) (iblk0 V c 2 t) (iblk0 V c 3 t) (iblk0 V c 4 t) p q,
    result_entry5 t p q, hidden_apply, row_features V c t p, row_neighbours V c t p, entry_recip V c t p,
    block_weights V c t, block_bias V c t]

/-- What point `t` writes back to the second result is block `t` of `hidden` as well. -/
theorem flushed6 (c : Dev nD) (t : Fin cfg0.N) :
    (dat0 V c).flushed 6 t = ((cfg0.win 6).blk t).view.read (Elt Ideal) (hidden V c) := by
  show (cfg0.win 6).cut (grid0.coords t) ((dat0 V c).after 6 t) = _
  rw [after0_6]
  funext y
  obtain ⟨p, q, rfl⟩ : ∃ (p : Fin 2000) (q : Fin 256), y = ix2 p q := ⟨y 0, y 1, eq_ix2 y⟩
  show out0_6 (iblk0 V c 0 t) (iblk0 V c 1 t) (iblk0 V c 2 t) (iblk0 V c 3 t) (iblk0 V c 4 t)
      ((cfg0.win 6).xinj (grid0.coords t) (ix2 p q))
    = hidden V c (((cfg0.win 6).blk t).view.emb (ix2 p q))
  have hx : (cfg0.win 6).xinj (grid0.coords t) (ix2 p q) = (ix2 p q : S2000x256.Idx) :=
    funext fun a => Fin.ext (by match a with | ⟨0, _⟩ => rfl | ⟨1, _⟩ => rfl)
  rw [hx, out6_entry (iblk0 V c 0 t) (iblk0 V c 1 t) (iblk0 V c 2 t) (iblk0 V c 3 t) (iblk0 V c 4 t) p q,
    result_entry6 t p q, hidden_apply, row_features V c t p, row_neighbours V c t p, entry_recip V c t p,
    block_weights V c t, block_bias V c t]

/-! ## The 25 blocks fill the result -/

/-- An index of a result array lies in point `t`'s block iff each coordinate lies in the block's range on its axis. -/
theorem mem_block5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v23_0).slice (win0_5.rect t)).set ↔ _
  rw [View.set_slice_whole, Rect.mem_set_unit]
  exact Iff.rfl

theorem mem_block6 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v23_1).slice (win0_6.rect t)).set ↔ _
  rw [View.set_slice_whole, Rect.mem_set_unit]
  exact Iff.rfl

/-- The point whose block holds row `r`: `r / 2000`. -/
theorem point_of_row (r : Fin 50000) : ∃ t : Fin cfg0.N, t.val = r.val / 2000 :=
  ⟨⟨r.val / 2000, lt_of_lt_of_eq (by have := r.isLt; omega) N_0.symm⟩, rfl⟩

/-- Every index of the first result lies in the block of a point that writes back. -/
theorem cover5 (i : S50000x256.Idx) :
    ∃ t : Fin cfg0.N, (cfg0.win 5).flush t = true ∧ i ∈ ((cfg0.win 5).blk t).view.set := by
  have hi1 : (i 1).val < 256 := (i 1).isLt
  obtain ⟨t, ht⟩ := point_of_row (i 0)
  obtain ⟨-, -, -, -, -, ⟨e0, e1⟩, -⟩ := block_index t
  refine ⟨t, flush0_5 t, ?_⟩
  rw [mem_block5]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

/-- Every index of the second result lies in the block of a point that writes back. -/
theorem cover6 (i : S50000x256.Idx) :
    ∃ t : Fin cfg0.N, (cfg0.win 6).flush t = true ∧ i ∈ ((cfg0.win 6).blk t).view.set := by
  have hi1 : (i 1).val < 256 := (i 1).isLt
  obtain ⟨t, ht⟩ := point_of_row (i 0)
  obtain ⟨-, -, -, -, -, -, ⟨e0, e1⟩⟩ := block_index t
  refine ⟨t, flush0_6 t, ?_⟩
  rw [mem_block6]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 256 ≤ (i 1).val ∧ (i 1).val < win0_6.index t (1 : Fin 2) * 256 + 256
    rw [e1]; omega

/-! ## The two result arrays after the call -/

/-- After the call the first result holds `hidden` of the arrays the call found. -/
theorem arr5 (c : Dev nD) : (dat0 V c).arrAt 5 cfg0.N = hidden V c :=
  (dat0 V c).arrAt_eq_of_cover 5 (hidden V c) (fun t _ => flushed5 V c t) cover5

/-- After the call the second result holds the same values. -/
theorem arr6 (c : Dev nD) : (dat0 V c).arrAt 6 cfg0.N = hidden V c :=
  (dat0 V c).arrAt_eq_of_cover 6 (hidden V c) (fun t _ => flushed6 V c t) cover6

end Cert.KernelIdeal.Region0

end
-- ==== Proof.Region1.lean ====
/-
  The second layer and the decoder, from blocks of rows to the whole output column.

  The second call walks 25 blocks of 2000 nodes. At each block it reads the block's rows of the summed neighbour
  rows and of the hidden rows and the block's entries of the reciprocal degree, reads the three weight matrices and
  the three one-row biases whole, and writes the block's entries of the output column. For one node the value
  written is: the mean over the node and its neighbours, (a + h) · s, then a dense layer, a dense layer with the
  rectifier, and a dense layer to one column. Each row of a block's result depends on the same row of the block's
  operands alone, row p of block t is row 2000 t + p of the array, and the 25 blocks tile the 50000 rows; so the
  output column ends holding that function of the node's own rows, node by node.
-/
import proofs.«120125_j82205674045928_2_alg».proof.Proof.Gen.KernelIdeal.Frame
import proofs.«120125_j82205674045928_2_alg».proof.Proof.Spec
import proofs.«120125_j82205674045928_2_alg».proof.Proof.BlockRows
import Idealize.ShloMosaic.Lib.Pipeline.Value

noncomputable section

open Idealize.ShloMosaic Idealize.ShloMosaic.TcCoe Idealize.SL.Sem Idealize.ShloMosaic.ValueIdx
open Idealize.ShloMosaic.Pipeline (Dat)
open Cert.DenseRows Cert.Sage

namespace Cert.KernelIdeal.Region1
open Cert.KernelIdeal Cert.KernelIdeal.Gen

variable (V : (c : Dev nD) → (b : Ref sig .tc) → Buf (Elt Ideal) ((c : Thread nD τ).loc b))

/-- What the output column holds at node `i 0`: the second layer and the decoder applied to the mean over the node and
    its neighbours, read off the arrays the call finds. -/
def output (c : Dev nD) : S50000x1.Idx → EReal := fun i =>
  decode (meanMul (row (V c main_v34) (i 0)) (row (V c main_v23_0) (i 0)) (V c main_v8 (ix2 (i 0) 0)))
    (mat (V c main_v35)) (row (V c main_v38) 0) (mat (V c main_v36)) (row (V c main_v39) 0)
    (mat (V c main_v37)) (row (V c main_v40) 0) (i 1)

/-! ## One block, one row -/

/-- Two zero offsets, as a constant function. -/
theorem zeros2 : (![0, 0] : Fin 2 → Nat) = fun _ => 0 := funext fun a => by fin_cases a <;> rfl

/-- The last product contracts the 256 lanes of a 2000-row block against a one-column matrix. -/
theorem dims_out : dot_S2000x256_S256x1_S2000x1_1_0_0_1_n_n = DotDims.plain 2000 256 1 := rfl

/-- The two products before it contract the 256 lanes against a 256-column matrix. -/
theorem dims_hid : dot_S2000x256_S256x256_S2000x256_1_0_0_1_n_n = DotDims.plain 2000 256 256 := rfl

/-- ONE BLOCK, ONE ROW. Row `y` of what the body leaves in the output block is the decoder chain applied to the mean of
    row `y` of the two row operands with the reciprocal count at `y`: every step (the mean, each product with its bias,
    the rectifier, each change of format) acts on a row through that row alone. -/
theorem block_row (x0 x1 : Vec Ideal S2000x256 .f32) (x2 : Vec Ideal S2000x1 .f32) (x3 : Vec Ideal S256x256 .bf16)
    (x4 : Vec Ideal S1x256 .f32) (x5 : Vec Ideal S256x256 .bf16) (x6 : Vec Ideal S1x256 .f32) (x7 : Vec Ideal S256x1 .bf16)
    (x8 : Vec Ideal S1x1 .f32) (y : Fin 2000) :
    row (out1_9 x0 x1 x2 x3 x4 x5 x6 x7 x8) y
      = decode (meanMul (row x0 y) (row x1 y) (x2 (ix2 y 0))) (mat x3) (row x4 0) (mat x5) (row x6 0) (mat x7) (row x8 0) := by
  unfold out1_9
  rw [View.canon_unit_zero zeros2]
  simp only [View.ld_unit_zero (S := S2000x256) zeros2, View.ld_unit_zero (S := S2000x1) zeros2,
    View.ld_unit_zero (S := S256x256) zeros2, View.ld_unit_zero (S := S1x256) zeros2,
    View.ld_unit_zero (S := S256x1) zeros2, View.ld_unit_zero (S := S1x1) zeros2]
  unfold k1_pay1
  unfold Cert.Sage.decode
  dsimp only
  simp only [shapeCast_self]
  rw [Cert.Sage.BlockRows.row_matmul_rowbias _ dims_out, row_truncf, row_max_splat,
    Cert.Sage.BlockRows.row_matmul_rowbias _ dims_hid, row_truncf,
    Cert.Sage.BlockRows.row_matmul_rowbias _ dims_hid, row_truncf,
    Cert.Sage.BlockRows.row_meanMul]
  rfl

/-! ## Where each block sits in its array -/

/-- Row `p` of block `t` is row `2000 t + p` of the array. -/
def rowAt (t : Fin cfg1.N) (p : Fin 2000) : Fin 50000 :=
  ⟨2000 * t.val + p.val, by have h := t.isLt; have hN : cfg1.N = 25 := N_1; have hp := p.isLt; omega⟩

/-- The block indices, decided over the 25 points: the row operands, the reciprocal count and the output are at block
    `(t, 0)`; the weights and biases are at block `(0, 0)`, whole. -/
theorem index_facts : ∀ t : Fin cfg1.N,
    (win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0)
    ∧ (win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0) :=
  (by decide +kernel : ∀ t : Fin grid1.N, _)

/-- Row `p` of the summed-neighbour block at point `t` is row `2000 t + p` of the summed-neighbour array. -/
theorem rows_summed (c : Dev nD) (t : Fin cfg1.N) (p : Fin 2000) :
    row (iblk1 V c 0 t) p = row (V c main_v34) (rowAt t p) := by
  funext k
  show V c main_v34 (((cfg1.win 0).blk t).view.emb (ix2 p k)) = V c main_v34 (ix2 (rowAt t p) k)
  refine congrArg _ ?_
  funext a
  apply Fin.ext
  match a with
  | ⟨0, _⟩ =>
    show win1_0.index t (0 : Fin 2) * 2000 + 1 * p.val = 2000 * t.val + p.val
    rw [(index_facts t).1.1]; omega
  | ⟨1, _⟩ =>
    show win1_0.index t (1 : Fin 2) * 256 + 1 * k.val = k.val
    rw [(index_facts t).1.2.1]; omega

/-- Row `p` of the hidden block at point `t` is row `2000 t + p` of the hidden array. -/
theorem rows_hidden (c : Dev nD) (t : Fin cfg1.N) (p : Fin 2000) :
    row (iblk1 V c 1 t) p = row (V c main_v23_0) (rowAt t p) := by
  funext k
  show V c main_v23_0 (((cfg1.win 1).blk t).view.emb (ix2 p k)) = V c main_v23_0 (ix2 (rowAt t p) k)
  refine congrArg _ ?_
  funext a
  apply Fin.ext
  match a with
  | ⟨0, _⟩ =>
    show win1_1.index t (0 : Fin 2) * 2000 + 1 * p.val = 2000 * t.val + p.val
    rw [(index_facts t).1.2.2.1]; omega
  | ⟨1, _⟩ =>
    show win1_1.index t (1 : Fin 2) * 256 + 1 * k.val = k.val
    rw [(index_facts t).1.2.2.2.1]; omega

/-- Entry `p` of the reciprocal-count block at point `t` is entry `2000 t + p` of the reciprocal-count column. -/
theorem recip_at (c : Dev nD) (t : Fin cfg1.N) (p : Fin 2000) :
    (iblk1 V c 2 t : Vec Ideal S2000x1 .f32) (ix2 p 0) = V c main_v8 (ix2 (rowAt t p) 0) := by
  show V c main_v8 (((cfg1.win 2).blk t).view.emb (ix2 p (0 : Fin 1))) = V c main_v8 (ix2 (rowAt t p) (0 : Fin 1))
  refine congrArg _ ?_
  funext a
  apply Fin.ext
  match a with
  | ⟨0, _⟩ =>
    show win1_2.index t (0 : Fin 2) * 2000 + 1 * p.val = 2000 * t.val + p.val
    rw [(index_facts t).1.2.2.2.2.1]; omega
  | ⟨1, _⟩ =>
    show win1_2.index t (1 : Fin 2) * 1 + 1 * 0 = 0
    rw [(index_facts t).1.2.2.2.2.2.1]

/-- The second layer's weights are read whole at every point. -/
theorem weights_second (c : Dev nD) (t : Fin cfg1.N) : mat (iblk1 V c 3 t) = mat (V c main_v35) := by
  funext k n
  show V c main_v35 (((cfg1.win 3).blk t).view.emb (ix2 k n)) = V c main_v35 (ix2 k n)
  refine congrArg _ ?_
  funext a
  apply Fin.ext
  match a with
  | ⟨0, _⟩ =>
    show win1_3.index t (0 : Fin 2) * 256 + 1 * k.val = k.val
    rw [(index_facts t).2.1]; omega
  | ⟨1, _⟩ =>
    show win1_3.index t (1 : Fin 2) * 256 + 1 * n.val = n.val
    rw [(index_facts t).2.2.1]; omega

/-- The second layer's bias is read whole at every point. -/
theorem bias_second (c : Dev nD) (t : Fin cfg1.N) : row (iblk1 V c 4 t) 0 = row (V c main_v38) 0 := by
  funext n
  show V c main_v38 (((cfg1.win 4).blk t).view.emb (ix2 (0 : Fin 1) n)) = V c main_v38 (ix2 (0 : Fin 1) n)
  refine congrArg _ ?_
  funext a
  apply Fin.ext
  match a with
  | ⟨0, _⟩ =>
    show win1_4.index t (0 : Fin 2) * 1 + 1 * 0 = 0
    rw [(index_facts t).2.2.2.1]
  | ⟨1, _⟩ =>
    show win1_4.index t (1 : Fin 2) * 256 + 1 * n.val = n.val
    rw [(index_facts t).2.2.2.2.1]; omega

/-- The decoder's first weights are read whole at every point. -/
theorem weights_hidden (c : Dev nD) (t : Fin cfg1.N) : mat (iblk1 V c 5 t) = mat (V c main_v36) := by
  funext k n
  show V c main_v36 (((cfg1.win 5).blk t).view.emb (ix2 k n)) = V c main_v36 (ix2 k n)
  refine congrArg _ ?_
  funext a
  apply Fin.ext
  match a with
  | ⟨0, _⟩ =>
    show win1_5.index t (0 : Fin 2) * 256 + 1 * k.val = k.val
    rw [(index_facts t).2.2.2.2.2.1]; omega
  | ⟨1, _⟩ =>
    show win1_5.index t (1 : Fin 2) * 256 + 1 * n.val = n.val
    rw [(index_facts t).2.2.2.2.2.2.1]; omega

/-- The decoder's first bias is read whole at every point. -/
theorem bias_hidden (c : Dev nD) (t : Fin cfg1.N) : row (iblk1 V c 6 t) 0 = row (V c main_v39) 0 := by
  funext n
  show V c main_v39 (((cfg1.win 6).blk t).view.emb (ix2 (0 : Fin 1) n)) = V c main_v39 (ix2 (0 : Fin 1) n)
  refine congrArg _ ?_
  funext a
  apply Fin.ext
  match a with
  | ⟨0, _⟩ =>
    show win1_6.index t (0 : Fin 2) * 1 + 1 * 0 = 0
    rw [(index_facts t).2.2.2.2.2.2.2.1]
  | ⟨1, _⟩ =>
    show win1_6.index t (1 : Fin 2) * 256 + 1 * n.val = n.val
    rw [(index_facts t).2.2.2.2.2.2.2.2.1]; omega

/-- The decoder's last weights, one column, are read whole at every point. -/
theorem weights_out (c : Dev nD) (t : Fin cfg1.N) : mat (iblk1 V c 7 t) = mat (V c main_v37) := by
  funext k n
  show V c main_v37 (((cfg1.win 7).blk t).view.emb (ix2 k n)) = V c main_v37 (ix2 k n)
  refine congrArg _ ?_
  funext a
  apply Fin.ext
  match a with
  | ⟨0, _⟩ =>
    show win1_7.index t (0 : Fin 2) * 256 + 1 * k.val = k.val
    rw [(index_facts t).2.2.2.2.2.2.2.2.2.1]; omega
  | ⟨1, _⟩ =>
    show win1_7.index t (1 : Fin 2) * 1 + 1 * n.val = n.val
    rw [(index_facts t).2.2.2.2.2.2.2.2.2.2.1]; omega

/-- The decoder's last bias, one entry, is read whole at every point. -/
theorem bias_out (c : Dev nD) (t : Fin cfg1.N) : row (iblk1 V c 8 t) 0 = row (V c main_v40) 0 := by
  funext n
  show V c main_v40 (((cfg1.win 8).blk t).view.emb (ix2 (0 : Fin 1) n)) = V c main_v40 (ix2 (0 : Fin 1) n)
  refine congrArg _ ?_
  funext a
  apply Fin.ext
  match a with
  | ⟨0, _⟩ =>
    show win1_8.index t (0 : Fin 2) * 1 + 1 * 0 = 0
    rw [(index_facts t).2.2.2.2.2.2.2.2.2.2.2.1]
  | ⟨1, _⟩ =>
    show win1_8.index t (1 : Fin 2) * 1 + 1 * n.val = n.val
    rw [(index_facts t).2.2.2.2.2.2.2.2.2.2.2.2]; omega

/-- Entry `(p, q)` of the output block at point `t` sits at `(2000 t + p, q)` of the output column. -/
theorem out_place (t : Fin cfg1.N) (p : Fin 2000) (q : Fin 1) :
    ((cfg1.win 9).blk t).view.emb (ix2 p q) = (ix2 (rowAt t p) q : S50000x1.Idx) := by
  funext a
  apply Fin.ext
  match a with
  | ⟨0, _⟩ =>
    show win1_9.index t (0 : Fin 2) * 2000 + 1 * p.val = 2000 * t.val + p.val
    rw [(index_facts t).1.2.2.2.2.2.2.1]; omega
  | ⟨1, _⟩ =>
    show win1_9.index t (1 : Fin 2) * 1 + 1 * q.val = q.val
    rw [(index_facts t).1.2.2.2.2.2.2.2]; omega

/-! ## What a point writes back -/

/-- The output block is written back whole: what is flushed at `(p, q)` is the staging buffer's entry there. -/
theorem flushed_entry (t : Fin cfg1.N) (X : Vec Ideal S2000x1 .f32) (p : Fin 2000) (q : Fin 1) :
    (cfg1.win 9).cut (grid1.coords t) X (ix2 p q) = row X p q := rfl

/-- Block `t` of a column, read at `(p, q)`, is the column at `(2000 t + p, q)`. -/
theorem block_entry (t : Fin cfg1.N) (G : S50000x1.Idx → EReal) (p : Fin 2000) (q : Fin 1) :
    ((cfg1.win 9).blk t).view.read (Elt Ideal) G (ix2 p q) = G (ix2 (rowAt t p) q) :=
  congrArg G (out_place t p q)

/-- `output` at node `r`. -/
theorem output_apply (c : Dev nD) (r : Fin 50000) (q : Fin 1) : output V c (ix2 r q) =
    decode (meanMul (row (V c main_v34) r) (row (V c main_v23_0) r) (V c main_v8 (ix2 r 0)))
      (mat (V c main_v35)) (row (V c main_v38) 0) (mat (V c main_v36)) (row (V c main_v39) 0)
      (mat (V c main_v37)) (row (V c main_v40) 0) q := rfl

/-- WHAT POINT `t` WRITES BACK is block `t` of `output`: row by row, each operand block read where the output's block
    sits. -/
theorem flushed_block (c : Dev nD) (t : Fin cfg1.N) :
    (dat1 V c).flushed 9 t = ((cfg1.win 9).blk t).view.read (Elt Ideal) (output V c) := by
  show (cfg1.win 9).cut (grid1.coords t) ((dat1 V c).after 9 t) = _
  rw [after1_9]
  funext y
  obtain ⟨p, q, rfl⟩ : ∃ (p : Fin 2000) (q : Fin 1), y = ix2 p q := ⟨y 0, y 1, eq_ix2 y⟩
  refine (flushed_entry t _ p q).trans ?_
  refine Eq.trans ?_ (block_entry t (output V c) p q).symm
  rw [block_row (iblk1 V c 0 t) (iblk1 V c 1 t) (iblk1 V c 2 t) (iblk1 V c 3 t) (iblk1 V c 4 t) (iblk1 V c 5 t)
      (iblk1 V c 6 t) (iblk1 V c 7 t) (iblk1 V c 8 t) p,
    output_apply, rows_summed V c t p, rows_hidden V c t p, recip_at V c t p, weights_second V c t, bias_second V c t,
    weights_hidden V c t, bias_hidden V c t, weights_out V c t, bias_out V c t]

/-! ## The 25 blocks fill the column -/

/-- An index of the output column lies in point `t`'s block iff each coordinate lies in the block's range on its axis. -/
theorem mem_block (t : Fin cfg1.N) (i : S50000x1.Idx) :
    i ∈ ((cfg1.win 9).blk t).view.set ↔ ∀ a : Fin 2, win1_9.index t a * S2000x1.size a ≤ (i a).val
      ∧ (i a).val < win1_9.index t a * S2000x1.size a + S2000x1.size a := by
  show i ∈ ((View.whole main_v41).slice (win1_9.rect t)).set ↔ _
  rw [View.set_slice_whole, Rect.mem_set_unit]
  exact Iff.rfl

/-- The point whose block holds node `r`: `r / 2000`. -/
theorem point_of_node (r : Fin 50000) : ∃ t : Fin cfg1.N, t.val = r.val / 2000 :=
  ⟨⟨r.val / 2000, lt_of_lt_of_eq (by have := r.isLt; omega) N_1.symm⟩, rfl⟩

/-- Every index of the output column lies in the block of a point that writes back: 25 blocks of 2000 rows are 50000. -/
theorem covered (i : S50000x1.Idx) :
    ∃ t : Fin cfg1.N, (cfg1.win 9).flush t = true ∧ i ∈ ((cfg1.win 9).blk t).view.set := by
  have hi1 : (i 1).val < 1 := (i 1).isLt
  obtain ⟨t, ht⟩ := point_of_node (i 0)
  have e0 := (index_facts t).1.2.2.2.2.2.2.1
  have e1 := (index_facts t).1.2.2.2.2.2.2.2
  refine ⟨t, flush1_9 t, ?_⟩
  rw [mem_block]
  intro a
  match a with
  | ⟨0, _⟩ =>
    show win1_9.index t (0 : Fin 2) * 2000 ≤ (i 0).val ∧ (i 0).val < win1_9.index t (0 : Fin 2) * 2000 + 2000
    rw [e0, ht]; omega
  | ⟨1, _⟩ =>
    show win1_9.index t (1 : Fin 2) * 1 ≤ (i 1).val ∧ (i 1).val < win1_9.index t (1 : Fin 2) * 1 + 1
    rw [e1]; omega

/-! ## The output column after the call -/

/-- After the second call its output column holds `output`: every block written back is that block of `output`, and the
    blocks fill the column. -/
theorem arr9 (c : Dev nD) : (dat1 V c).arrAt 9 cfg1.N = output V c :=
  (dat1 V c).arrAt_eq_of_cover 9 (output V c) (fun t _ => flushed_block V c t) covered

end Cert.KernelIdeal.Region1
end
-- ==== Proof.KernelResult.lean ====
/-
  The idealized kernel program's result array as a function of its launched arguments.

  The run (Proof/KernelRun.lean) leaves the result buffer at the contents the fold through the program's four segments
  gives it. This module reads that fold from the end. The second pallas_call's output array is, row by row, the
  decoder applied to the mean of what that call finds in its arrays (Proof/Region1.lean); what it finds is what the
  host operations between the calls make of the first call's outputs and of the arguments; the first call's outputs
  are, row by row, the encoder applied to the mean of what the first call finds (Proof/Region0.lean); and that is
  what the first stretch of host operations makes of the arguments. Each host stretch is read off by composing its
  operations; a change of float format is the identity on the extended reals, a reshape of a vector to a one-row
  matrix or to a column keeps its entries, and the gathers, accumulating scatters and the degree count are the
  stages the reference shares (Proof/Stages.lean).
-/
import proofs.«120125_j82205674045928_2_alg».proof.Proof.Gen.KernelIdeal.Frame
import proofs.«120125_j82205674045928_2_alg».proof.Proof.Stages
import proofs.«120125_j82205674045928_2_alg».proof.Proof.Spec
import proofs.«120125_j82205674045928_2_alg».proof.Proof.Bridge
import proofs.«120125_j82205674045928_2_alg».proof.Proof.Region0
import proofs.«120125_j82205674045928_2_alg».proof.Proof.Region1
import proofs.«120125_j82205674045928_2_alg».proof.Proof.LibLayoutRead
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.Lib.IdealHost

set_option maxRecDepth 16384
noncomputable section
open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.DenseRows Cert.Sage

namespace Cert.KernelIdeal.Result

open Cert.Sage.Stages Cert.Sage.Bridge

variable (m : (ℓ : Loc nD τ sig) → Buf (Elt Ideal) ℓ) (ρ : Dev nD → PrngReg)

/-! ## What the first pallas_call finds in its arrays -/

/-- The node features reach the first call as launched. -/
theorem entry0_features (c : Dev nD) :
    (V1 m ρ c main_arg0 : S50000x128.Idx → EReal) = m ((c.tc : Thread nD τ).loc main_arg0) := by
  show StableHlo.after hostOps0 (W0 m ρ c) (Proc.devRef .tc main_arg0) = _
  after_results <;> rfl

set_option maxHeartbeats 4000000 in
/-- The summed neighbour rows the first call reads are the shared stage of the launched features: the change of
    float format before the gather and back after it is the identity on the extended reals. -/
theorem entry0_neigh (c : Dev nD) :
    (V1 m ρ c main_v20 : S50000x128.Idx → EReal)
      = neighA (m ((c.tc : Thread nD τ).loc main_arg0)) (m ((c.tc : Thread nD τ).loc main_arg1)) (m ((c.tc : Thread nD τ).loc main_arg2)) := by
  show StableHlo.after hostOps0 (W0 m ρ c) (Proc.devRef .tc main_v20) = _
  after_results <;> rfl

/-- The reciprocal degree column: the word of 1.0 over the degree count, cast from a vector to a column. -/
theorem entry0_recip (c : Dev nD) :
    (V1 m ρ c main_v8 : S50000x1.Idx → EReal)
      = shapeCast S50000x1 (Host.divf (broadcastInDim S50000 ![] bcast_S_S50000 (constant (F := Ideal) S_ .f32 0x3F800000#32))
          (degree (m ((c.tc : Thread nD τ).loc main_arg2)))) shapeCasts_S50000_S50000x1 := by
  show StableHlo.after hostOps0 (W0 m ρ c) (Proc.devRef .tc main_v8) = _
  after_results <;> rfl

/-- The first weight matrix, its change of float format the identity. -/
theorem entry0_weight (c : Dev nD) :
    (V1 m ρ c main_v21 : S128x256.Idx → EReal) = m ((c.tc : Thread nD τ).loc main_arg3) := by
  show StableHlo.after hostOps0 (W0 m ρ c) (Proc.devRef .tc main_v21) = _
  after_results <;> rfl

/-- The first bias, cast from a vector to a one-row matrix. -/
theorem entry0_bias (c : Dev nD) :
    (V1 m ρ c main_v22 : S1x256.Idx → EReal) = shapeCast S1x256 (m ((c.tc : Thread nD τ).loc main_arg4)) shapeCasts_S256_S1x256 := by
  show StableHlo.after hostOps0 (W0 m ρ c) (Proc.devRef .tc main_v22) = _
  after_results <;> rfl

/-- The reciprocal column at node `r`. -/
theorem entry0_recip_apply (c : Dev nD) (r : Fin 50000) :
    (V1 m ρ c main_v8 : S50000x1.Idx → EReal) (ix2 r (0 : Fin 1)) = recip (m ((c.tc : Thread nD τ).loc main_arg2)) r := by
  rw [entry0_recip, Cert.LayoutRead.cast_col]
  rw [hostDivf_apply, broadcastInDim_scalar_apply]
  rfl

/-- The one-row bias read as the bias vector. -/
theorem entry0_bias_row (c : Dev nD) :
    row (V1 m ρ c main_v22 : S1x256.Idx → EReal) (0 : Fin 1) = vec (m ((c.tc : Thread nD τ).loc main_arg4)) := by
  rw [entry0_bias]
  funext n
  exact shapeCast_a_1a_apply _ _ _ _

/-! ## The hidden rows -/

/-- The first call's outputs hold the kernel program's hidden rows of the launched arguments. -/
theorem hidden_eq (c : Dev nD) :
    Cert.KernelIdeal.Region0.hidden (V1 m ρ) c = kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨r, n, rfl⟩ : ∃ (r : Fin 50000) (n : Fin 256), i = ix2 r n := ⟨i 0, i 1, eq_ix2 i⟩
  show encode (meanMul (row (V1 m ρ c main_v20 : S50000x128.Idx → EReal) r) (row (V1 m ρ c main_arg0 : S50000x128.Idx → EReal) r)
        ((V1 m ρ c main_v8 : S50000x1.Idx → EReal) (ix2 r (0 : Fin 1))))
      (mat (V1 m ρ c main_v21 : S128x256.Idx → EReal)) (row (V1 m ρ c main_v22 : S1x256.Idx → EReal) (0 : Fin 1)) n
    = encode (meanMul (row (neighA (m ((c.tc : Thread nD τ).loc main_arg0)) (m ((c.tc : Thread nD τ).loc main_arg1)) (m ((c.tc : Thread nD τ).loc main_arg2))) r) (row (m ((c.tc : Thread nD τ).loc main_arg0)) r) (recip (m ((c.tc : Thread nD τ).loc main_arg2)) r)) (mat (m ((c.tc : Thread nD τ).loc main_arg3))) (vec (m ((c.tc : Thread nD τ).loc main_arg4))) n
  rw [entry0_neigh, entry0_features, entry0_recip_apply, entry0_weight, entry0_bias_row]

/-! ## Between the calls: what the first call leaves, and the arguments it does not touch -/

theorem between_arg1 (c : Dev nD) : W2 m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results <;> rfl)

theorem between_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results <;> rfl)

theorem between_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results <;> rfl)

theorem between_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results <;> rfl)

theorem between_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results <;> rfl)

theorem between_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results <;> rfl)

theorem between_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results <;> rfl)

theorem between_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results <;> rfl)

/-- The first call's single-precision output after it: the hidden rows. -/
theorem between_hidden (c : Dev nD) :
    (W2 m ρ c (Proc.devRef .tc main_v23_0) : S50000x256.Idx → EReal) = kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans ((Cert.KernelIdeal.Region0.arr5 (V1 m ρ) c).trans (hidden_eq m ρ c))

/-- The first call's half-precision output after it: the same hidden rows, the format the identity. -/
theorem between_hidden_half (c : Dev nD) :
    (W2 m ρ c (Proc.devRef .tc main_v23_1) : S50000x256.Idx → EReal) = kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 6).trans ((Cert.KernelIdeal.Region0.arr6 (V1 m ρ) c).trans (hidden_eq m ρ c))

/-- The reciprocal column is an input of the first call: it leaves the call as it entered. -/
theorem between_recip (c : Dev nD) :
    (W2 m ρ c (Proc.devRef .tc main_v8) : S50000x1.Idx → EReal) = V1 m ρ c main_v8 :=
  (W2_arr m ρ c 2).trans (((dat0 (V1 m ρ) c).arrAt_in 2 rfl _).trans (A_eq0 (V1 m ρ) c 2))

/-! ## What the second pallas_call finds in its arrays -/

set_option maxHeartbeats 4000000 in
/-- The summed neighbour rows the second call reads: the shared stage of the hidden rows. -/
theorem entry1_neigh (c : Dev nD) :
    (V3 m ρ c main_v34 : S50000x256.Idx → EReal)
      = neighB (kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) := by
  rw [← between_hidden_half m ρ c, ← between_arg1 m ρ c, ← between_arg2 m ρ c]
  show StableHlo.after hostOps1 (W2 m ρ c) (Proc.devRef .tc main_v34) = _
  after_results <;> rfl

/-- The hidden rows the second call reads. -/
theorem entry1_hidden (c : Dev nD) :
    (V3 m ρ c main_v23_0 : S50000x256.Idx → EReal) = kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [← between_hidden m ρ c]
  show StableHlo.after hostOps1 (W2 m ρ c) (Proc.devRef .tc main_v23_0) = _
  after_results <;> rfl

/-- The reciprocal column the second call reads, at node `r`. -/
theorem entry1_recip_apply (c : Dev nD) (r : Fin 50000) :
    (V3 m ρ c main_v8 : S50000x1.Idx → EReal) (ix2 r (0 : Fin 1)) = recip (m ((c.tc : Thread nD τ).loc main_arg2)) r := by
  rw [← entry0_recip_apply m ρ c r, ← between_recip m ρ c]
  show StableHlo.after hostOps1 (W2 m ρ c) (Proc.devRef .tc main_v8) (ix2 r (0 : Fin 1)) = _
  refine congrFun ?_ _
  after_results <;> rfl

/-- The second layer's weights. -/
theorem entry1_w2 (c : Dev nD) : (V3 m ρ c main_v35 : S256x256.Idx → EReal) = (m ((c.tc : Thread nD τ).loc main_arg5)) := by
  rw [← between_arg5 m ρ c]
  show StableHlo.after hostOps1 (W2 m ρ c) (Proc.devRef .tc main_v35) = _
  after_results <;> rfl

/-- The decoder's first weights. -/
theorem entry1_wd1 (c : Dev nD) : (V3 m ρ c main_v36 : S256x256.Idx → EReal) = (m ((c.tc : Thread nD τ).loc main_arg7)) := by
  rw [← between_arg7 m ρ c]
  show StableHlo.after hostOps1 (W2 m ρ c) (Proc.devRef .tc main_v36) = _
  after_results <;> rfl

/-- The decoder's last weights. -/
theorem entry1_wd2 (c : Dev nD) : (V3 m ρ c main_v37 : S256x1.Idx → EReal) = (m ((c.tc : Thread nD τ).loc main_arg9)) := by
  rw [← between_arg9 m ρ c]
  show StableHlo.after hostOps1 (W2 m ρ c) (Proc.devRef .tc main_v37) = _
  after_results <;> rfl

/-- The second layer's bias as a one-row matrix, read as the bias vector. -/
theorem entry1_b2_row (c : Dev nD) : row (V3 m ρ c main_v38 : S1x256.Idx → EReal) (0 : Fin 1) = vec (m ((c.tc : Thread nD τ).loc main_arg6)) := by
  have e : (V3 m ρ c main_v38 : S1x256.Idx → EReal) = shapeCast S1x256 (m ((c.tc : Thread nD τ).loc main_arg6)) shapeCasts_S256_S1x256 := by
    rw [← between_arg6 m ρ c]
    show StableHlo.after hostOps1 (W2 m ρ c) (Proc.devRef .tc main_v38) = _
    after_results <;> rfl
  rw [e]
  funext n
  exact shapeCast_a_1a_apply _ _ _ _

/-- The decoder's first bias as a one-row matrix, read as the bias vector. -/
theorem entry1_bd1_row (c : Dev nD) : row (V3 m ρ c main_v39 : S1x256.Idx → EReal) (0 : Fin 1) = vec (m ((c.tc : Thread nD τ).loc main_arg8)) := by
  have e : (V3 m ρ c main_v39 : S1x256.Idx → EReal) = shapeCast S1x256 (m ((c.tc : Thread nD τ).loc main_arg8)) shapeCasts_S256_S1x256 := by
    rw [← between_arg8 m ρ c]
    show StableHlo.after hostOps1 (W2 m ρ c) (Proc.devRef .tc main_v39) = _
    after_results <;> rfl
  rw [e]
  funext n
  exact shapeCast_a_1a_apply _ _ _ _

/-- The decoder's last bias as a one-by-one matrix, read as the bias vector. -/
theorem entry1_bd2_row (c : Dev nD) : row (V3 m ρ c main_v40 : S1x1.Idx → EReal) (0 : Fin 1) = vec (m ((c.tc : Thread nD τ).loc main_arg10)) := by
  have e : (V3 m ρ c main_v40 : S1x1.Idx → EReal) = shapeCast S1x1 (m ((c.tc : Thread nD τ).loc main_arg10)) shapeCasts_S1_S1x1 := by
    rw [← between_arg10 m ρ c]
    show StableHlo.after hostOps1 (W2 m ρ c) (Proc.devRef .tc main_v40) = _
    after_results <;> rfl
  rw [e]
  funext n
  exact shapeCast_a_1a_apply _ _ _ _

/-! ## The result -/

/-- The result array after the run is the kernel program's second stage of its hidden rows, of the launched arguments. -/
theorem result_eq (c : Dev nD) :
    (W4 m ρ c (Proc.devRef .tc main_v41) : S50000x1.Idx → EReal)
      = kOutput (kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 9).trans ((Cert.KernelIdeal.Region1.arr9 (V3 m ρ) c).trans ?_)
  funext i
  obtain ⟨r, q, rfl⟩ : ∃ (r : Fin 50000) (q : Fin 1), i = ix2 r q := ⟨i 0, i 1, eq_ix2 i⟩
  show decode (meanMul (row (V3 m ρ c main_v34 : S50000x256.Idx → EReal) r) (row (V3 m ρ c main_v23_0 : S50000x256.Idx → EReal) r)
        ((V3 m ρ c main_v8 : S50000x1.Idx → EReal) (ix2 r (0 : Fin 1))))
      (mat (V3 m ρ c main_v35 : S256x256.Idx → EReal)) (row (V3 m ρ c main_v38 : S1x256.Idx → EReal) (0 : Fin 1))
      (mat (V3 m ρ c main_v36 : S256x256.Idx → EReal)) (row (V3 m ρ c main_v39 : S1x256.Idx → EReal) (0 : Fin 1))
      (mat (V3 m ρ c main_v37 : S256x1.Idx → EReal)) (row (V3 m ρ c main_v40 : S1x1.Idx → EReal) (0 : Fin 1)) q
    = decode (meanMul (row (neighB (kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2))) r)
        (row (kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) r) (recip (m ((c.tc : Thread nD τ).loc main_arg2)) r))
      (mat (m ((c.tc : Thread nD τ).loc main_arg5))) (vec (m ((c.tc : Thread nD τ).loc main_arg6))) (mat (m ((c.tc : Thread nD τ).loc main_arg7))) (vec (m ((c.tc : Thread nD τ).loc main_arg8))) (mat (m ((c.tc : Thread nD τ).loc main_arg9))) (vec (m ((c.tc : Thread nD τ).loc main_arg10))) q
  rw [entry1_neigh, entry1_hidden, entry1_recip_apply, entry1_w2, entry1_b2_row, entry1_wd1, entry1_bd1_row, entry1_wd2, entry1_bd2_row]

end Cert.KernelIdeal.Result

end
-- ==== Proof.lean ====
/-
  The certificate of a two-layer GraphSAGE encoder (the "gcn" aggregator) with a two-layer decoder, written as two
  pallas_calls with gathers and accumulating scatters on the host between them, against its jnp reference.

  On the extended reals both programs compute, for every node v,
      h(v)   = relu( mean₁(v) · W1 + b1 ),        mean₁(v) = (Σ_{u → v} x(u) + x(v)) / (n(v) + 1),
      out(v) = relu( (mean₂(v) · W2 + b2) · Wd1 + bd1 ) · Wd2 + bd2,   mean₂(v) = (Σ_{u → v} h(u) + h(v)) / (n(v) + 1),
  where n(v) counts the edges arriving at v. The sums over neighbours and the count are the same host operations in
  both programs (a change of float format is the identity on the extended reals). The programs differ in two ways:
  the kernel program multiplies by the reciprocal 1 / (n(v) + 1), computed once, where the reference divides — equal
  because n(v) + 1 ≥ 1 is not zero —, and it computes the dense layers on blocks of 2000 rows, each row of a block
  depending on that row alone, where the reference computes them on all rows at once.

  The three frame claims are the generated frame certificates (the reference's is its generated run with the result
  dropped); the idealization rewrote nothing, so `preserves` is trivial; `algebraic` puts the kernel program's run
  (Proof/KernelRun.lean), its result as a function of the arguments (Proof/KernelResult.lean), the reference's run and
  its result (Proof/Stages.lean) and the agreement of the two functions (Proof/Bridge.lean) together.
-/
import proofs.«120125_j82205674045928_2_alg».proof.Defs
import proofs.«120125_j82205674045928_2_alg».proof.Proof.Gen.Kernel
import proofs.«120125_j82205674045928_2_alg».proof.Proof.Gen.Kernel.Skeleton
import proofs.«120125_j82205674045928_2_alg».proof.Proof.Gen.Kernel.Launch
import proofs.«120125_j82205674045928_2_alg».proof.Proof.Gen.Kernel.Points
import proofs.«120125_j82205674045928_2_alg».proof.Proof.Gen.Kernel.Frame
import proofs.«120125_j82205674045928_2_alg».proof.Proof.Gen.KernelIdeal
import proofs.«120125_j82205674045928_2_alg».proof.Proof.Gen.KernelIdeal.Skeleton
import proofs.«120125_j82205674045928_2_alg».proof.Proof.Gen.KernelIdeal.Launch
import proofs.«120125_j82205674045928_2_alg».proof.Proof.Gen.KernelIdeal.Points
import proofs.«120125_j82205674045928_2_alg».proof.Proof.Gen.KernelIdeal.Frame
import proofs.«120125_j82205674045928_2_alg».proof.Proof.Gen.ReferenceIdeal
import proofs.«120125_j82205674045928_2_alg».proof.Proof.Gen.ReferenceIdeal.Run
import proofs.«120125_j82205674045928_2_alg».proof.Proof.Gen.Pre_finite_inputs
import proofs.«120125_j82205674045928_2_alg».proof.Proof.KernelRun
import proofs.«120125_j82205674045928_2_alg».proof.Proof.KernelResult
import proofs.«120125_j82205674045928_2_alg».proof.Proof.Stages
import proofs.«120125_j82205674045928_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with one result array: the kernel program's result is
    its second stage of its hidden rows, the reference's is its own two stages, and the stages agree. -/
theorem algebraic : Cert.algebraic_KernelIdeal_ReferenceIdeal := by
  intro m ρ m' ρ' _ hagree
  refine ⟨fun c => Cert.Sage.Bridge.kOutput (Cert.Sage.Bridge.kHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Result.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.Sage.Stages.reference_result, e0, e1, e2, e3, e4, e5, e6, e7, e8, e9, e10]
    show _ = Cert.Sage.Bridge.kOutput (Cert.Sage.Bridge.kHidden _ _ _ _ _) _ _ _ _ _ _ _ _
    rw [Cert.Sage.Bridge.kOutput_eq, Cert.Sage.Bridge.kHidden_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
